-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_cst_6 : FVec F S_ .f32 := constant S_ .f32 0x00000000#32
  let main_v19 : FVec F S8192 .f32 := (fun x v => Host.reduceAdd x v reducesTo_S8192x8192_S8192_d1 h_S_) main_arg1 main_cst_6
  let main_cst_7 : FVec F S_ .f32 := constant S_ .f32 0x00000000#32
  let main_v20 : FVec F S8192 .f32 := broadcastInDim S8192 ![] bcast_S_S8192 main_cst_7
  let main_v21 : IVec S8192 1 := cmpf .une main_v19 main_v20
  let main_c_8 : IVec S_ 1 := constantI S_ 1 1#1
  let main_v22 : IVec S_ 1 := (fun x v => Host.reduce IntOp.andi x v reducesTo_S8192_S_d0 h_S_) main_v21 main_c_8
  let main_v23 : IVec S_ 1 := andi main_v18 main_v22
  main_v23

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S8192 : Shape := ⟨1, ![8192]⟩
abbrev S512x8192 : Shape := ⟨2, ![512, 8192]⟩
abbrev S512 : Shape := ⟨1, ![512]⟩
abbrev S_ : Shape := ⟨0, ![]⟩
abbrev S8192x1 : Shape := ⟨2, ![8192, 1]⟩
abbrev S512x1 : Shape := ⟨2, ![512, 1]⟩
abbrev S512x256 : Shape := ⟨2, ![512, 256]⟩
abbrev S1x256 : Shape := ⟨2, ![1, 256]⟩

abbrev nBuf : Space → Nat
  | .hbm => 13
  | .vmem => 13
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x256, .f32⟩
  | .hbm, ⟨10, _⟩ => ⟨S8192x256, .f32⟩
  | .hbm, ⟨11, _⟩ => ⟨S8192x1, .f32⟩
  | .hbm, ⟨12, _⟩ => ⟨S8192x256, .f32⟩
  | .local _ .vmem, ⟨0, _⟩ => ⟨S512x8192, .f32⟩
  | .local _ .vmem, ⟨1, _⟩ => ⟨S512x8192, .f32⟩
  | .local _ .vmem, ⟨2, _⟩ => ⟨S512, .f32⟩
  | .local _ .vmem, ⟨3, _⟩ => ⟨S512, .f32⟩
  | .local _ .vmem, ⟨4, _⟩ => ⟨S512x8192, .f32⟩
  | .local _ .vmem, ⟨5, _⟩ => ⟨S512x8192, .f32⟩
  | .local _ .vmem, ⟨6, _⟩ => ⟨S8192x256, .f32⟩
  | .local _ .vmem, ⟨7, _⟩ => ⟨S512x1, .f32⟩
  | .local _ .vmem, ⟨8, _⟩ => ⟨S512x1, .f32⟩
  | .local _ .vmem, ⟨9, _⟩ => ⟨S256x256, .f32⟩
  | .local _ .vmem, ⟨10, _⟩ => ⟨S256, .f32⟩
  | .local _ .vmem, ⟨11, _⟩ => ⟨S512x256, .f32⟩
  | .local _ .vmem, ⟨12, _⟩ => ⟨S512x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  inb_S512_S512_0 : ∀ a, (![0] : Fin 1 → Nat) a + S512.size a ≤ S512.size a
  h_S512 : 0 < S512.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  shapeCasts_S8192_S8192x1 : S8192.ShapeCasts S8192x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x8192_S8192x256_S512x256_1_0_0_1_n_n_wf : DotDims.WF S512x8192 S8192x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .f32 = 32 ∨ (Rect.block (s := S8192) S512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8192.size a ≤ S8192x8192.size a
  hwx1_0 : ∀ i : grid1.Coords, EltTy.bits .f32 = 32 ∨ (Rect.block (s := S8192x8192) S512x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S8192x256.size a
  hwx1_5 : ∀ i : grid1.Coords, EltTy.bits .f32 = 32 ∨ (Rect.block (s := S8192x256) S512x256.size (cc1_transform_5 i) (hinb1_5 i)).WholeWords (EltTy.packing .f32)

variable [Facts₀]

def dot_S512x8192_S8192x256_S512x256_1_0_0_1_n_n : DotDims S512x8192 S8192x256 S512x256 where
  lhsContracting := [1]
  rhsContracting := [0]
  lhsNonContracting := [0]
  rhsNonContracting := [1]
  lhsBatch := []
  rhsBatch := []
  wf := dot_S512x8192_S8192x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S512x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192x1, .f32⟩
  | .hbm, ⟨10, _⟩ => ⟨S8192x8192, .f32⟩
  | .hbm, ⟨11, _⟩ => ⟨S8192x8192, .f32⟩
  | .hbm, ⟨12, _⟩ => ⟨S1x8192, .f32⟩
  | .hbm, ⟨13, _⟩ => ⟨S8192x8192, .f32⟩
  | .hbm, ⟨14, _⟩ => ⟨S8192x8192, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S_, .f32⟩
  | .hbm, ⟨21, _⟩ => ⟨S8192x256, .f32⟩
  | .hbm, ⟨22, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []

variable [Facts₀]

def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

class Facts : Prop extends Facts₀ where

variable [Facts]
-- ==== Proof.Spec.lean ====
/-
  The layer as mathematics: every array that the two programs compute, written as a function of the argument
  arrays on the extended reals, index by index.

  The adjacency `A` is 8192 × 8192, the features `x` are 8192 × 256, the weight `W` is 256 × 256 and the bias
  `b` has 256 entries. Row `i` of `A` has degree `deg A i = ∑ j, A i j` and reciprocal degree `inv A i = 1 / deg A i`.
  The normalised aggregation is written in two arrangements:

    * `aggK`: scale the features first, contract, scale the row afterwards —
        `(∑ j, A i j · (x j d · inv j)) · inv i`;
    * `aggR`: scale the adjacency entry on both sides, then contract —
        `∑ j, ((A i j · inv i) · inv j) · x j d`.

  Either aggregation `h` is then sent through the same affine map and rectifier,
  `layer h W b i e = max ((∑ d, h i d · W d e) + b e) 0`.

  `G0` and `G1` are the same formulas with the intermediate arrays left as parameters: `G0` is the degree vector of
  an adjacency, `G1` is the layer of an adjacency, an array of pre-scaled features and a column of row scales.
-/
import Idealize.ShloMosaic.PureOps.Ideal
import Idealize.ShloMosaic.Lib.ValueIdx

noncomputable section

open scoped BigOperators

namespace Cert.Gcn

open Idealize.ShloMosaic Idealize.ShloMosaic.ValueIdx

abbrev SNN : Shape := ⟨2, ![8192, 8192]⟩
abbrev SND : Shape := ⟨2, ![8192, 256]⟩
abbrev SDD : Shape := ⟨2, ![256, 256]⟩
abbrev SD : Shape := ⟨1, ![256]⟩
abbrev SN : Shape := ⟨1, ![8192]⟩
abbrev SN1 : Shape := ⟨2, ![8192, 1]⟩

/-- The word of `1.0`, the numerator of the reciprocal degree in both programs. -/
abbrev one : EReal := Ideal.ofBits .f32 0x3F800000#32

/-- The degree of row `i`: the sum of the adjacency's row. -/
def deg (A : SNN.Idx → EReal) (i : Fin 8192) : EReal := ∑ j : Fin 8192, A (ix2 i j)

/-- The reciprocal degree of row `i`. -/
def inv (A : SNN.Idx → EReal) (i : Fin 8192) : EReal := Ideal.div one (deg A i)

/-- The aggregation with the features scaled before the contraction and the row scaled after it. -/
def aggK (A : SNN.Idx → EReal) (x : SND.Idx → EReal) (i : Fin 8192) (d : Fin 256) : EReal :=
  (∑ j : Fin 8192, A (ix2 i j) * (x (ix2 j d) * inv A j)) * inv A i

/-- The aggregation with each adjacency entry scaled by its row's and its column's reciprocal degree. -/
def aggR (A : SNN.Idx → EReal) (x : SND.Idx → EReal) (i : Fin 8192) (d : Fin 256) : EReal :=
  ∑ j : Fin 8192, A (ix2 i j) * inv A i * inv A j * x (ix2 j d)

/-- The affine map and the rectifier, applied to an aggregation `h`. -/
def layer (h : Fin 8192 → Fin 256 → EReal) (W : SDD.Idx → EReal) (b : SD.Idx → EReal) (i : Fin 8192) (e : Fin 256) : EReal :=
  max ((∑ d : Fin 256, h i d * W (ix2 d e)) + b (ix1 e)) 0

/-- The layer over `aggK`, as an array. -/
def GK (A : SNN.Idx → EReal) (x : SND.Idx → EReal) (W : SDD.Idx → EReal) (b : SD.Idx → EReal) : SND.Idx → EReal :=
  fun p => layer (aggK A x) W b (p 0) (p 1)

/-- The layer over `aggR`, as an array. -/
def GR (A : SNN.Idx → EReal) (x : SND.Idx → EReal) (W : SDD.Idx → EReal) (b : SD.Idx → EReal) : SND.Idx → EReal :=
  fun p => layer (aggR A x) W b (p 0) (p 1)

/-- The degree vector of an adjacency, as an array. -/
def G0 (A : SNN.Idx → EReal) : SN.Idx → EReal := fun q => deg A (q 0)

/-- The layer of an adjacency `A`, pre-scaled features `xs` and a column `ir` of row scales, as an array:
    `max ((∑ d, ((∑ j, A i j · xs j d) · ir i) · W d e) + b e) 0`. -/
def G1 (A : SNN.Idx → EReal) (xs : SND.Idx → EReal) (ir : SN1.Idx → EReal) (W : SDD.Idx → EReal) (b : SD.Idx → EReal) :
    SND.Idx → EReal :=
  fun p => layer (fun i d => (∑ j : Fin 8192, A (ix2 i j) * xs (ix2 j d)) * ir (ix2 i (0 : Fin 1))) W b (p 0) (p 1)

theorem GK_apply (A : SNN.Idx → EReal) (x : SND.Idx → EReal) (W : SDD.Idx → EReal) (b : SD.Idx → EReal) (i : Fin 8192) (e : Fin 256) :
    GK A x W b (ix2 i e) = layer (aggK A x) W b i e := rfl

theorem GR_apply (A : SNN.Idx → EReal) (x : SND.Idx → EReal) (W : SDD.Idx → EReal) (b : SD.Idx → EReal) (i : Fin 8192) (e : Fin 256) :
    GR A x W b (ix2 i e) = layer (aggR A x) W b i e := rfl

theorem G0_apply (A : SNN.Idx → EReal) (i : Fin 8192) : G0 A (ix1 i) = deg A i := rfl

theorem G1_apply (A : SNN.Idx → EReal) (xs : SND.Idx → EReal) (ir : SN1.Idx → EReal) (W : SDD.Idx → EReal) (b : SD.Idx → EReal)
    (i : Fin 8192) (e : Fin 256) :
    G1 A xs ir W b (ix2 i e)
      = max ((∑ d : Fin 256, ((∑ j : Fin 8192, A (ix2 i j) * xs (ix2 j d)) * ir (ix2 i (0 : Fin 1))) * W (ix2 d e)) + b (ix1 e)) 0 := rfl

/-- With the features scaled by the reciprocal degrees and the column of row scales the reciprocal degrees,
    `G1` is the layer over `aggK`. -/
theorem G1_scaled (A : SNN.Idx → EReal) (x : SND.Idx → EReal) (W : SDD.Idx → EReal) (b : SD.Idx → EReal) :
    G1 A (fun p => x p * inv A (p 0)) (fun p => inv A (p 0)) W b = GK A x W b := rfl

end Cert.Gcn

end
-- ==== Proof.Law.lean ====
/-
  The law that joins the two arrangements of the normalised aggregation.

  When every adjacency entry and every feature is a real number and no row of the adjacency sums to zero, every
  reciprocal degree is a real number too, so the whole computation stays inside the reals, where

      (∑ j, A i j · (x j d · v j)) · v i  =  ∑ j, ((A i j · v i) · v j) · x j d

  by distributing `v i` over the sum and reordering the factors of each term. On the extended reals this
  distribution is not available in general (a zero row sum makes `v i` infinite), which is why the hypothesis on the
  row sums is needed.
-/
import proofs.«152606_j48473000903495_2_alg».proof.Proof.Spec

noncomputable section

open scoped BigOperators

namespace Cert.Gcn

open Idealize.ShloMosaic Idealize.ShloMosaic.ValueIdx

/-- A finite sum of real numbers, read in the extended reals, is the real sum. -/
theorem coe_sum {ι : Type} (s : Finset ι) (f : ι → ℝ) : ∑ i ∈ s, (f i : EReal) = ((∑ i ∈ s, f i : ℝ) : EReal) := by
  classical
  refine Finset.induction_on s ?_ ?_
  · simp
  · intro a s ha ih
    rw [Finset.sum_insert ha, Finset.sum_insert ha, ih, EReal.coe_add]

/-- The word of `1.0` denotes the number one. -/
theorem one_eq : one = 1 := by
  simp [one, Ideal.ofBits, Ideal.ieee, -EReal.coe_mul]; norm_num

/-- The two aggregations agree entry by entry on real data with no zero row sum. -/
theorem aggK_eq_aggR (A : SNN.Idx → EReal) (x : SND.Idx → EReal)
    (hA : ∀ p, A p ≠ ⊤ ∧ A p ≠ ⊥) (hx : ∀ p, x p ≠ ⊤ ∧ x p ≠ ⊥) (hdeg : ∀ i, deg A i ≠ 0)
    (i : Fin 8192) (d : Fin 256) : aggK A x i d = aggR A x i d := by
  obtain ⟨a, rfl⟩ : ∃ a : SNN.Idx → ℝ, A = fun p => (a p : EReal) :=
    ⟨fun p => (A p).toReal, funext fun p => (EReal.coe_toReal (hA p).1 (hA p).2).symm⟩
  obtain ⟨y, rfl⟩ : ∃ y : SND.Idx → ℝ, x = fun p => (y p : EReal) :=
    ⟨fun p => (x p).toReal, funext fun p => (EReal.coe_toReal (hx p).1 (hx p).2).symm⟩
  -- each degree is the real row sum, which is not zero, so each reciprocal degree is its real reciprocal
  have hd : ∀ k, deg (fun p => (a p : EReal)) k = ((∑ j : Fin 8192, a (ix2 k j) : ℝ) : EReal) := fun k => by
    unfold deg; exact coe_sum _ _
  have hne : ∀ k, (∑ j : Fin 8192, a (ix2 k j)) ≠ 0 := fun k h0 => hdeg k (by rw [hd k, h0, EReal.coe_zero])
  have hv : ∀ k, inv (fun p => (a p : EReal)) k = ((1 / ∑ j : Fin 8192, a (ix2 k j) : ℝ) : EReal) := fun k => by
    unfold inv; rw [hd k, Ideal.div_coe (hne k), one_eq, one_mul]
  unfold aggK aggR
  simp only [hv, ← EReal.coe_mul, coe_sum]
  refine congrArg _ ?_
  rw [Finset.sum_mul]
  exact Finset.sum_congr rfl fun j _ => by ring

/-- So the layer over either aggregation is one array. -/
theorem GK_eq_GR (A : SNN.Idx → EReal) (x : SND.Idx → EReal) (W : SDD.Idx → EReal) (b : SD.Idx → EReal)
    (hA : ∀ p, A p ≠ ⊤ ∧ A p ≠ ⊥) (hx : ∀ p, x p ≠ ⊤ ∧ x p ≠ ⊥) (hdeg : ∀ i, deg A i ≠ 0) :
    GK A x W b = GR A x W b := by
  have h : aggK A x = aggR A x := funext fun i => funext fun d => aggK_eq_aggR A x hA hx hdeg i d
  unfold GK GR
  rw [h]

end Cert.Gcn

end
-- ==== Proof.KernelRun.lean ====
/-
  The idealized kernel's run with its result named.

  The program is two grid regions with one stretch of host operations between them. Region 0 writes the degree
  vector of the adjacency; the host stretch takes its reciprocal, scales each feature row by it and lays the
  reciprocals out as a column; region 1 contracts the adjacency against the scaled features, scales each row by
  the column entry, applies the affine map and the rectifier. This module reads the run of the whole program: the
  result buffer ends at what region 1's write-backs leave, which is a function of the buffers as region 1 finds
  them; those are the host stretch's functions of the buffers as region 0 leaves them; and the arguments are
  never written.
-/
import proofs.«152606_j48473000903495_2_alg».proof.Proof.Gen.KernelIdeal.Frame

set_option maxRecDepth 16384

noncomputable section

namespace Cert.Gcn.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

local notation "𝕄" => MT nD τ sig Unit (Elt F) ℕ (UR sig nD τ) ℕ

/-! ## The host stretch, from any contents -/

/-- The reciprocal degrees as the host stretch computes them from a degree vector `dg`. -/
def recip (dg : FVec F S8192 .f32) : FVec F S8192 .f32 :=
  Host.divf (broadcastInDim S8192 ![] bcast_S_S8192 (constant S_ .f32 0x3F800000#32)) dg

/-- The scaled features: each feature row times its reciprocal degree, the reciprocals laid out as a column and
    repeated along the feature axis. -/
def scaled (x : FVec F S8192x256 .f32) (dg : FVec F S8192 .f32) : FVec F S8192x256 .f32 :=
  mulf x (broadcastInDim S8192x256 ![0, 1] bcast_S8192x1_S8192x256_0_1 (broadcastInDim S8192x1 ![0] bcast_S8192_S8192x1_0 (recip dg)))

/-- The reciprocals as a column. -/
def column (dg : FVec F S8192 .f32) : FVec F S8192x1 .f32 :=
  shapeCast S8192x1 (recip dg) shapeCasts_S8192_S8192x1

/-- After the host stretch the scaled-features buffer holds `scaled` of the features and the degree buffer. -/
theorem host_scaled (W : Valuation τ sig (Elt F)) :
    StableHlo.after (hostOps1 (F := F)) W (Proc.devRef .tc main_v5)
      = scaled (W (Proc.devRef .tc main_arg0)) (W (Proc.devRef .tc main_v0)) := by
  unfold scaled recip
  after_results_simp

/-- After the host stretch the column buffer holds `column` of the degree buffer. -/
theorem host_column (W : Valuation τ sig (Elt F)) :
    StableHlo.after (hostOps1 (F := F)) W (Proc.devRef .tc main_v6)
      = column (W (Proc.devRef .tc main_v0)) := by
  unfold column recip
  after_results_simp
  rfl

variable (m : (ℓ : Loc nD τ sig) → Buf (Elt F) ℓ) (ρ : Dev nD → PrngReg)

/-! ## The buffers as region 1 finds them

Neither region 0 nor the host stretch writes an argument, so region 1 finds each argument as launched; the
scaled-features and column buffers hold the host stretch's functions of the features as launched and of the
degree buffer as region 0's write-backs leave it. -/

theorem entry1_arg0 (c : Dev nD) : V2 m ρ c main_arg0 = m ((c : Thread nD τ).loc main_arg0) :=
  (W3_of_ne m ρ c main_arg0 (by decide)).symm.trans (W3_main_arg0 m ρ c)

theorem entry1_arg1 (c : Dev nD) : V2 m ρ c main_arg1 = m ((c : Thread nD τ).loc main_arg1) :=
  ((W3_arr m ρ c 0).trans (((dat1 (V2 m ρ) c).arrAt_in 0 rfl _).trans (A_eq1 (V2 m ρ) c 0))).symm.trans (W3_main_arg1 m ρ c)

theorem entry1_arg2 (c : Dev nD) : V2 m ρ c main_arg2 = m ((c : Thread nD τ).loc main_arg2) :=
  ((W3_arr m ρ c 3).trans (((dat1 (V2 m ρ) c).arrAt_in 3 rfl _).trans (A_eq1 (V2 m ρ) c 3))).symm.trans (W3_main_arg2 m ρ c)

theorem entry1_arg3 (c : Dev nD) : V2 m ρ c main_arg3 = m ((c : Thread nD τ).loc main_arg3) :=
  ((W3_arr m ρ c 4).trans (((dat1 (V2 m ρ) c).arrAt_in 4 rfl _).trans (A_eq1 (V2 m ρ) c 4))).symm.trans (W3_main_arg3 m ρ c)

theorem entry1_scaled (c : Dev nD) :
    V2 m ρ c main_v5 = scaled (m ((c : Thread nD τ).loc main_arg0)) ((dat0 (V0 m ρ) c).arrAt 1 cfg0.N) :=
  (host_scaled (W1 m ρ c)).trans (congrArg₂ scaled (W1_of_ne m ρ c main_arg0 (by decide)) (W1_arr m ρ c 1))

theorem entry1_column (c : Dev nD) :
    V2 m ρ c main_v6 = column ((dat0 (V0 m ρ) c).arrAt 1 cfg0.N) :=
  (host_column (W1 m ρ c)).trans (congrArg column (W1_arr m ρ c 1))

/-- Region 0 finds the adjacency as launched. -/
theorem entry0_arg1 (c : Dev nD) : V0 m ρ c main_arg1 = m ((c : Thread nD τ).loc main_arg1) := rfl

/-- The result buffer ends at what region 1's write-backs leave in its output array. -/
theorem exit_result (c : Dev nD) : W3 m ρ c (Proc.devRef .tc main_v7) = (dat1 (V2 m ρ) c).arrAt 5 cfg1.N :=
  W3_arr m ρ c 5

/-! ## The run -/

set_option backward.isDefEq.respectTransparency.types false in
/-- Every weakly fair execution of the program terminates, nothing faulting, with the result buffer at the last
    boundary's contents and the arguments as launched: the launch over the program's three segments, the last thread
    state read against the final state at the result buffer as well as at the arguments. -/
theorem run_named : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.Gcn.Run

end
-- ==== Proof.Region0.lean ====
/-
  What the first region leaves in its output array: the degree vector of the adjacency.

  The region runs over sixteen grid points. Point `t` reads rows `512·t … 512·t + 511` of the 8192 × 8192 adjacency
  `A` as a 512 × 8192 block, sums every row of the block over its 8192 columns, and writes the 512 sums back as entries
  `512·t … 512·t + 511` of the output. Entry `512·t + r` is therefore `∑ j, A (512·t + r, j)`, the degree of that row,
  and since the sixteen blocks of 512 tile the 8192 entries (entry `i` lies in the block of point `i / 512`), the
  array ends holding the degree of every row.
-/
import proofs.«152606_j48473000903495_2_alg».proof.Proof.Gen.KernelIdeal.Frame
import proofs.«152606_j48473000903495_2_alg».proof.Proof.Spec
import Idealize.ShloMosaic.Lib.Pipeline.Value
import Idealize.ShloMosaic.Lib.ValueIdx
import Idealize.ShloMosaic.PureOps.Ideal.Laws

noncomputable section

open scoped BigOperators

namespace Cert.Gcn.Region0

open Idealize.ShloMosaic Idealize.ShloMosaic.TcCoe Idealize.SL.Sem
open Cert.KernelIdeal Cert.KernelIdeal.Gen
open Idealize.ShloMosaic.ValueIdx
open Idealize.ShloMosaic.Pipeline (Dat)

theorem zero1 : (![0] : Fin 1 → Nat) = fun _ => 0 := funext fun a => by fin_cases a; rfl
theorem zero2 : (![0, 0] : Fin 2 → Nat) = fun _ => 0 := funext fun a => by fin_cases a <;> rfl

/-- The body's arithmetic at position `r` of a block: the sum of row `r` of the loaded block over its columns. -/
theorem rowSum_apply (x0 : FVec Ideal S512x8192 .f32) (r : Fin 512) :
    k0_pay1 (F := Ideal) x0 (ix1 r) = ∑ j : Fin 8192, x0 (ix2 r j) := by
  unfold k0_pay1
  refine (Ideal.multiReduction_add_single x0 0x00000000#32 reduces_S512x8192_S512 (.inl rfl) rfl (ix1 r)).trans ?_
  refine Finset.sum_congr rfl fun j _ => congrArg x0 ?_
  exact funext fun a => Fin.ext (by match a with | ⟨0, _⟩ => rfl | ⟨1, _⟩ => rfl)

/-- If the loaded block is rows `512·n …` of an array `A`, the body's result at a position of the block is the
    degree of the corresponding row of `A`. -/
theorem block_value (A : S8192x8192.Idx → EReal) (x0 : FVec Ideal S512x8192 .f32) (n : Nat)
    (hx : ∀ (r : Fin 512) (j : Fin 8192) (k : Fin 8192), k.val = n * 512 + r.val → x0 (ix2 r j) = A (ix2 k j))
    (y : S512.Idx) (i : S8192.Idx) (hi : (i 0).val = n * 512 + (y 0).val) :
    k0_pay1 (F := Ideal) x0 y = Cert.Gcn.G0 A i := by
  obtain ⟨r, rfl⟩ : ∃ r : Fin 512, y = ix1 r := ⟨y 0, eq_ix1 y⟩
  obtain ⟨k, rfl⟩ : ∃ k : Fin 8192, i = ix1 k := ⟨i 0, eq_ix1 i⟩
  rw [rowSum_apply, Cert.Gcn.G0_apply]
  unfold Cert.Gcn.deg
  exact Finset.sum_congr rfl fun j _ => hx r j k hi

/-- The printed index maps, decided over the grid: at point `t` the adjacency's block index is `(t, 0)` and the
    output's is `t`. -/
theorem idx_facts : ∀ t : Fin cfg0.N, win0_0.index t (0 : Fin 2) = t.val ∧ win0_0.index t (1 : Fin 2) = 0
    ∧ win0_1.index t (0 : Fin 1) = t.val :=
  (by decide +kernel : ∀ t : Fin grid0.N, _)

variable (V : (c : Dev nD) → (b : Ref sig .tc) → Buf (Elt Ideal) ((c : Thread nD τ).loc b))

/-- The adjacency's block at point `t` is rows `512·t …` of the adjacency as the region finds it. -/
theorem iblk_rows (c : Dev nD) (t : Fin cfg0.N) (r : Fin 512) (j : Fin 8192) (k : Fin 8192)
    (hk : k.val = t.val * 512 + r.val) :
    (iblk0 (F := Ideal) V c 0 t : FVec Ideal S512x8192 .f32) (ix2 r j) = (V c main_arg1 : S8192x8192.Idx → EReal) (ix2 k j) := by
  obtain ⟨e0, e1, -⟩ := idx_facts t
  unfold iblk0
  rw [View.read_apply]
  show V c main_arg1 (((cfg0.win 0).blk t).view.emb (ix2 r j)) = V c main_arg1 (ix2 k j)
  refine congrArg (V c main_arg1) (funext fun a => Fin.ext ?_)
  match a with
  | ⟨0, _⟩ => show win0_0.index t (0 : Fin 2) * 512 + 1 * r.val = k.val; omega
  | ⟨1, _⟩ => show win0_0.index t (1 : Fin 2) * 8192 + 1 * j.val = j.val; omega

/-- What point `t` writes back is block `t` of the degree vector. -/
theorem flushed_eq (c : Dev nD) (t : Fin cfg0.N) :
    (dat0 (F := Ideal) V c).flushed 1 t = ((cfg0.win 1).blk t).view.read (Elt Ideal) (Cert.Gcn.G0 (V c main_arg1)) := by
  show (cfg0.win 1).cut (grid0.coords t) ((dat0 V c).after 1 t) = _
  rw [after0_1]
  unfold out0_1
  rw [View.canon_unit_zero zero1]
  simp only [View.ld_unit_zero (S := S512x8192) zero2]
  obtain ⟨-, -, e2⟩ := idx_facts t
  funext y
  show k0_pay1 (F := Ideal) (iblk0 V c 0 t) y = Cert.Gcn.G0 (V c main_arg1) (((cfg0.win 1).blk t).view.emb y)
  refine block_value (V c main_arg1) (iblk0 V c 0 t) t.val (fun r j k hk => iblk_rows V c t r j k hk) y _ ?_
  show win0_1.index t (0 : Fin 1) * 512 + 1 * (y 0).val = t.val * 512 + (y 0).val
  omega

/-- An entry of the output is in point `t`'s block iff it lies in the block's range of 512 entries. -/
theorem mem_blk (t : Fin cfg0.N) (i : S8192.Idx) :
    i ∈ ((cfg0.win 1).blk t).view.set ↔ ∀ a : Fin 1, win0_1.index t a * S512.size a ≤ (i a).val ∧ (i a).val < win0_1.index t a * S512.size a + S512.size a := by
  show i ∈ ((View.whole main_v0).slice (win0_1.rect t)).set ↔ _
  rw [View.set_slice_whole, Rect.mem_set_unit]
  exact Iff.rfl

/-- Every entry is in the block of the point `i / 512`, which writes back. -/
theorem cover (i : S8192.Idx) : ∃ t : Fin cfg0.N, (cfg0.win 1).flush t = true ∧ i ∈ ((cfg0.win 1).blk t).view.set := by
  have hi : (i 0).val < 8192 := (i 0).isLt
  have hN : grid0.N = 16 := N_0
  let t : Fin cfg0.N := ⟨(i 0).val / 512, by show (i 0).val / 512 < grid0.N; omega⟩
  obtain ⟨-, -, e2⟩ := idx_facts t
  have e2' : win0_1.index t (0 : Fin 1) = (i 0).val / 512 := e2
  refine ⟨t, flush0_1 t, ?_⟩
  rw [mem_blk]
  intro a
  match a with
  | ⟨0, _⟩ => show win0_1.index t (0 : Fin 1) * 512 ≤ (i 0).val ∧ (i 0).val < win0_1.index t (0 : Fin 1) * 512 + 512; omega

/-- After the first region, its output array holds the degree of every row of the adjacency. -/
theorem region0_value (c : Dev nD) :
    (dat0 (F := Ideal) V c).arrAt 1 cfg0.N = Cert.Gcn.G0 (V c main_arg1) :=
  (dat0 (F := Ideal) V c).arrAt_eq_of_cover 1 (Cert.Gcn.G0 (V c main_arg1)) (fun t _ => flushed_eq V c t) cover

end Cert.Gcn.Region0

end
-- ==== Proof.Region1.lean ====
/-
  What the second region leaves in its output array, for arbitrary contents of the arrays it is entered with.

  The region walks sixteen grid points. At point `t` its body sees rows `512 t … 512 t + 511` of the adjacency `A`
  (a `512 × 8192` block) and of the column `ir` of row scales (a `512 × 1` block), and the whole of the pre-scaled
  features `xs` (`8192 × 256`), of the weight `W` (`256 × 256`) and of the bias `b` (`256`). It stores one
  `512 × 256` block, which is written back to rows `512 t … 512 t + 511` of the output. At `(r, e)` the stored block holds

      max ((∑ d, ((∑ j, A (512 t + r, j) · xs (j, d)) · ir (512 t + r, 0)) · W (d, e)) + b e) 0,

  because each of the two contractions accumulates into zero and so is the plain sum over its contracted axis, the
  column of row scales is repeated along the features, the bias is repeated along the rows, and the rectifier is the
  maximum with zero. That is the layer `Cert.Gcn.G1 A xs ir W b` at row `512 t + r`. The sixteen blocks of 512 rows
  tile the 8192 rows — row `n` lies in the block of point `n / 512` — so after the last point the output array is
  `G1 A xs ir W b` everywhere. No law of arithmetic beyond reading each operation at an index is used, so nothing is
  asked of the contents: they may be infinite.
-/
import proofs.«152606_j48473000903495_2_alg».proof.Proof.Gen.KernelIdeal.Frame
import proofs.«152606_j48473000903495_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gcn.Region1

open Idealize.ShloMosaic Idealize.ShloMosaic.TcCoe Idealize.SL.Sem
open Cert.KernelIdeal Cert.KernelIdeal.Gen
open Idealize.ShloMosaic.ValueIdx

/-! ## The two contractions read at an index

Each of the body's two matrix products accumulates into the zero splat, so at the extended reals it is the plain sum
over its one contracted axis: the left operand's column index and the right operand's row index are that axis's coordinate. -/

theorem aggregate_lhs_row (i : S512x256.Idx) (q : dot_S512x8192_S8192x256_S512x256_1_0_0_1_n_n.contr.Idx) :
    (dot_S512x8192_S8192x256_S512x256_1_0_0_1_n_n.lhsIdx i q 0).val = (i 0).val := by
  unfold DotDims.lhsIdx
  rw [dif_neg (show ¬(0 : Fin S512x8192.rank) ∈ dot_S512x8192_S8192x256_S512x256_1_0_0_1_n_n.lhsBatch by decide),
    dif_pos (show (0 : Fin S512x8192.rank) ∈ dot_S512x8192_S8192x256_S512x256_1_0_0_1_n_n.lhsNonContracting by decide)]
  rfl

theorem aggregate_rhs_col (i : S512x256.Idx) (q : dot_S512x8192_S8192x256_S512x256_1_0_0_1_n_n.contr.Idx) :
    (dot_S512x8192_S8192x256_S512x256_1_0_0_1_n_n.rhsIdx i q 1).val = (i 1).val := by
  unfold DotDims.rhsIdx
  rw [dif_neg (show ¬(1 : Fin S8192x256.rank) ∈ dot_S512x8192_S8192x256_S512x256_1_0_0_1_n_n.rhsBatch by decide),
    dif_pos (show (1 : Fin S8192x256.rank) ∈ dot_S512x8192_S8192x256_S512x256_1_0_0_1_n_n.rhsNonContracting by decide)]
  rfl

/-- The aggregation `A · xs` of a block of 512 adjacency rows at `(r, d)`: the sum over all 8192 nodes. -/
theorem aggregate_apply (a : FVec Ideal S512x8192 .f32) (b : FVec Ideal S8192x256 .f32) (r : Fin 512) (d : Fin 256) :
    matmul dot_S512x8192_S8192x256_S512x256_1_0_0_1_n_n (some .fp32) a b (constant S512x256 .f32 0x00000000#32) (ix2 r d)
      = ∑ j : Fin 8192, a (ix2 r j) * b (ix2 j d) := by
  simp only [matmul]
  rw [Ideal.matmul_constant_zero_apply,
    ← Equiv.sum_comp (contrEquiv1 dot_S512x8192_S8192x256_S512x256_1_0_0_1_n_n 8192 rfl rfl).symm]
  refine Finset.sum_congr rfl fun k _ => ?_
  have hk := contrEquiv1_symm_val dot_S512x8192_S8192x256_S512x256_1_0_0_1_n_n 8192 rfl rfl k
  have el : dot_S512x8192_S8192x256_S512x256_1_0_0_1_n_n.lhsIdx (ix2 r d)
      ((contrEquiv1 dot_S512x8192_S8192x256_S512x256_1_0_0_1_n_n 8192 rfl rfl).symm k) = ix2 r k :=
    funext fun ax => Fin.ext (by
      match ax with
      | ⟨0, _⟩ => exact aggregate_lhs_row _ _
      | ⟨1, _⟩ => exact (dot_S512x8192_S8192x256_S512x256_1_0_0_1_n_n.lhsIdx_val_of_single rfl _ _).trans hk)
  have er : dot_S512x8192_S8192x256_S512x256_1_0_0_1_n_n.rhsIdx (ix2 r d)
      ((contrEquiv1 dot_S512x8192_S8192x256_S512x256_1_0_0_1_n_n 8192 rfl rfl).symm k) = ix2 k d :=
    funext fun ax => Fin.ext (by
      match ax with
      | ⟨0, _⟩ => exact (dot_S512x8192_S8192x256_S512x256_1_0_0_1_n_n.rhsIdx_val_of_single rfl _ _).trans hk
      | ⟨1, _⟩ => exact aggregate_rhs_col _ _)
  rw [el, er]

theorem transform_lhs_row (i : S512x256.Idx) (q : dot_S512x256_S256x256_S512x256_1_0_0_1_n_n.contr.Idx) :
    (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide),
    dif_pos (show (0 : Fin S512x256.rank) ∈ dot_S512x256_S256x256_S512x256_1_0_0_1_n_n.lhsNonContracting by decide)]
  rfl

theorem transform_rhs_col (i : S512x256.Idx) (q : dot_S512x256_S256x256_S512x256_1_0_0_1_n_n.contr.Idx) :
    (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide),
    dif_pos (show (1 : Fin S256x256.rank) ∈ dot_S512x256_S256x256_S512x256_1_0_0_1_n_n.rhsNonContracting by decide)]
  rfl

/-- The feature transform `h · W` of a block of 512 rows at `(r, e)`: the sum over the 256 hidden features. -/
theorem transform_apply (a : FVec Ideal S512x256 .f32) (b : FVec Ideal S256x256 .f32) (r : Fin 512) (e : Fin 256) :
    matmul dot_S512x256_S256x256_S512x256_1_0_0_1_n_n (some .fp32) a b (constant S512x256 .f32 0x00000000#32) (ix2 r e)
      = ∑ d : Fin 256, a (ix2 r d) * b (ix2 d e) := by
  simp only [matmul]
  rw [Ideal.matmul_constant_zero_apply,
    ← Equiv.sum_comp (contrEquiv1 dot_S512x256_S256x256_S512x256_1_0_0_1_n_n 256 rfl rfl).symm]
  refine Finset.sum_congr rfl fun k _ => ?_
  have hk := contrEquiv1_symm_val dot_S512x256_S256x256_S512x256_1_0_0_1_n_n 256 rfl rfl k
  have el : dot_S512x256_S256x256_S512x256_1_0_0_1_n_n.lhsIdx (ix2 r e)
      ((contrEquiv1 dot_S512x256_S256x256_S512x256_1_0_0_1_n_n 256 rfl rfl).symm k) = ix2 r k :=
    funext fun ax => Fin.ext (by
      match ax with
      | ⟨0, _⟩ => exact transform_lhs_row _ _
      | ⟨1, _⟩ => exact (dot_S512x256_S256x256_S512x256_1_0_0_1_n_n.lhsIdx_val_of_single rfl _ _).trans hk)
  have er : dot_S512x256_S256x256_S512x256_1_0_0_1_n_n.rhsIdx (ix2 r e)
      ((contrEquiv1 dot_S512x256_S256x256_S512x256_1_0_0_1_n_n 256 rfl rfl).symm k) = ix2 k e :=
    funext fun ax => Fin.ext (by
      match ax with
      | ⟨0, _⟩ => exact (dot_S512x256_S256x256_S512x256_1_0_0_1_n_n.rhsIdx_val_of_single rfl _ _).trans hk
      | ⟨1, _⟩ => exact transform_rhs_col _ _)
  rw [el, er]

/-! ## The two broadcasts read at an index -/

/-- The column of row scales `[512, 1]` broadcast along the features: at `(r, d)` it is the scale of row `r`. -/
theorem rowScale_apply (v : S512x1.Idx → EReal) (r : Fin 512) (d : Fin 256) :
    broadcastTo S512x256 v broadcasts_S512x1_S512x256 (ix2 r d) = v (ix2 r (0 : Fin 1)) := by
  refine broadcastTo_apply v broadcasts_S512x1_S512x256 (ix2 r d) (ix2 r (0 : Fin 1)) fun ax => ?_
  match ax with
  | ⟨0, _⟩ =>
    show r.val = if (512 : Nat) = 1 then 0 else r.val
    rw [if_neg (by decide)]
  | ⟨1, _⟩ =>
    show (0 : Nat) = if (1 : Nat) = 1 then 0 else d.val
    rw [if_pos rfl]

/-- The bias `[256]` viewed as one row and broadcast over the 512 rows: at `(r, e)` it is the bias of feature `e`. -/
theorem bias_apply (v : S256.Idx → EReal) (r : Fin 512) (e : Fin 256) :
    broadcastTo S512x256 (shapeCast S1x256 v shapeCasts_S256_S1x256) broadcasts_S1x256_S512x256 (ix2 r e) = v (ix1 e) := by
  rw [broadcastTo_1b_ab_apply, shapeCast_a_1a_apply]

/-! ## The body's payload at an index -/

/-- What the body stores at `(r, e)` of its output block, from the five blocks it loads: the aggregation of row `r`,
    scaled by the row's scale, sent through the weight, shifted by the bias and rectified. -/
theorem payload_apply (x0 : Vec Ideal S512x8192 .f32) (x1 : Vec Ideal S8192x256 .f32) (x2 : Vec Ideal S512x1 .f32)
    (x3 : Vec Ideal S256x256 .f32) (x4 : Vec Ideal S256 .f32) (r : Fin 512) (e : Fin 256) :
    k1_pay1 x0 x1 x2 x3 x4 (ix2 r e)
      = max ((∑ d : Fin 256, ((∑ j : Fin 8192, x0 (ix2 r j) * x1 (ix2 j d)) * x2 (ix2 r (0 : Fin 1))) * x3 (ix2 d e))
          + x4 (ix1 e)) 0 := by
  unfold k1_pay1
  rw [shapeCast_self, shapeCast_self, maximumf_apply, addf_apply, transform_apply, bias_apply, broadcast_apply]
  show max (_ + _) (Ideal.ofBits .f32 0x00000000#32) = _
  rw [Ideal.ofBits_zero_f32]
  refine congrArg (fun s => max (s + x4 (ix1 e)) 0) (Finset.sum_congr rfl fun d _ => ?_)
  rw [mulf_apply, aggregate_apply, rowScale_apply]

/-! ## One block of the output from the five blocks the body loads -/

/-- The zero offsets of a whole-buffer access, on two axes and on one. -/
theorem zero_offsets2 : (![0, 0] : Fin 2 → Nat) = fun _ => 0 := funext fun a => by fin_cases a <;> rfl
theorem zero_offsets1 : (![0] : Fin 1 → Nat) = fun _ => 0 := funext fun a => by fin_cases a <;> rfl

/-- If the loaded blocks are rows `512 q … 512 q + 511` of the adjacency and of the column of row scales, and the whole
    of the pre-scaled features, the weight and the bias, then the payload at `y` is the layer at row `512 q + y 0`. -/
theorem payload_eq_layer (A : SNN.Idx → EReal) (xs : SND.Idx → EReal) (ir : SN1.Idx → EReal) (W : SDD.Idx → EReal)
    (b : SD.Idx → EReal) (x0 : Vec Ideal S512x8192 .f32) (x1 : Vec Ideal S8192x256 .f32) (x2 : Vec Ideal S512x1 .f32)
    (x3 : Vec Ideal S256x256 .f32) (x4 : Vec Ideal S256 .f32) (q : Nat)
    (h0 : ∀ (r : Fin 512) (j : Fin 8192) (i : Fin 8192), i.val = 512 * q + r.val → x0 (ix2 r j) = A (ix2 i j))
    (h1 : ∀ (j : Fin 8192) (d : Fin 256), x1 (ix2 j d) = xs (ix2 j d))
    (h2 : ∀ (r : Fin 512) (i : Fin 8192), i.val = 512 * q + r.val → x2 (ix2 r (0 : Fin 1)) = ir (ix2 i (0 : Fin 1)))
    (h3 : ∀ (d e : Fin 256), x3 (ix2 d e) = W (ix2 d e))
    (h4 : ∀ e : Fin 256, x4 (ix1 e) = b (ix1 e))
    (y : S512x256.Idx) (i : SND.Idx) (hi0 : (i 0).val = 512 * q + (y 0).val) (hi1 : (i 1).val = (y 1).val) :
    k1_pay1 x0 x1 x2 x3 x4 y = G1 A xs ir W b i := by
  obtain ⟨r, e, rfl⟩ : ∃ (r : Fin 512) (e : Fin 256), y = ix2 r e := ⟨y 0, y 1, eq_ix2 y⟩
  obtain ⟨n, e', rfl⟩ : ∃ (n : Fin 8192) (e' : Fin 256), i = ix2 n e' := ⟨i 0, i 1, eq_ix2 i⟩
  obtain rfl : e' = e := Fin.ext hi1
  rw [payload_apply, G1_apply]
  simp only [h0 r _ n hi0, h1, h2 r n hi0, h3, h4]

/-! ## The index maps of the six windows, decided over the sixteen grid points -/

theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-! ## Each input window's block at a point, as entries of its array

A block's element sits in the array, on each axis, at the block index times the block's extent plus its own coordinate. -/

/-- The adjacency block at point `t` is rows `512 t … 512 t + 511` of the adjacency. -/
theorem adjacency_block (c : Dev nD) (t : Fin cfg1.N) (r : Fin 512) (j : Fin 8192) (i : Fin 8192)
    (hi : i.val = 512 * t.val + r.val) :
    (iblk1 V c 0 t : Vec Ideal S512x8192 .f32) (ix2 r j) = (V c main_arg1 : SNN.Idx → EReal) (ix2 i j) := by
  obtain ⟨e0, e1, -⟩ := index_facts t
  unfold iblk1
  rw [View.read_apply]
  show V c main_arg1 _ = V c main_arg1 _
  refine congrArg (V c main_arg1) (funext fun a => Fin.ext ?_)
  match a with
  | ⟨0, _⟩ => show win1_0.index t (0 : Fin 2) * 512 + 1 * r.val = i.val; rw [e0, hi]; omega
  | ⟨1, _⟩ => show win1_0.index t (1 : Fin 2) * 8192 + 1 * j.val = j.val; rw [e1]; omega

/-- The features block is the whole array of pre-scaled features at every point. -/
theorem features_block (c : Dev nD) (t : Fin cfg1.N) (j : Fin 8192) (d : Fin 256) :
    (iblk1 V c 1 t : Vec Ideal S8192x256 .f32) (ix2 j d) = (V c main_v5 : SND.Idx → EReal) (ix2 j d) := by
  obtain ⟨-, -, e2, e3, -⟩ := index_facts t
  unfold iblk1
  rw [View.read_apply]
  show V c main_v5 _ = V c main_v5 _
  refine congrArg (V c main_v5) (funext fun a => Fin.ext ?_)
  match a with
  | ⟨0, _⟩ => show win1_1.index t (0 : Fin 2) * 8192 + 1 * j.val = j.val; rw [e2]; omega
  | ⟨1, _⟩ => show win1_1.index t (1 : Fin 2) * 256 + 1 * d.val = d.val; rw [e3]; omega

/-- The block of row scales at point `t` is rows `512 t … 512 t + 511` of the column. -/
theorem rowScale_block (c : Dev nD) (t : Fin cfg1.N) (r : Fin 512) (i : Fin 8192) (hi : i.val = 512 * t.val + r.val) :
    (iblk1 V c 2 t : Vec Ideal S512x1 .f32) (ix2 r (0 : Fin 1)) = (V c main_v6 : SN1.Idx → EReal) (ix2 i (0 : Fin 1)) := by
  obtain ⟨-, -, -, -, e4, e5, -⟩ := index_facts t
  unfold iblk1
  rw [View.read_apply]
  show V c main_v6 _ = V c main_v6 _
  refine congrArg (V c main_v6) (funext fun a => Fin.ext ?_)
  match a with
  | ⟨0, _⟩ => show win1_2.index t (0 : Fin 2) * 512 + 1 * r.val = i.val; rw [e4, hi]; omega
  | ⟨1, _⟩ => show win1_2.index t (1 : Fin 2) * 1 + 1 * 0 = 0; rw [e5]

/-- The weight block is the whole weight at every point. -/
theorem weight_block (c : Dev nD) (t : Fin cfg1.N) (d e : Fin 256) :
    (iblk1 V c 3 t : Vec Ideal S256x256 .f32) (ix2 d e) = (V c main_arg2 : SDD.Idx → EReal) (ix2 d e) := by
  obtain ⟨-, -, -, -, -, -, e6, e7, -⟩ := index_facts t
  unfold iblk1
  rw [View.read_apply]
  show V c main_arg2 _ = V c main_arg2 _
  refine congrArg (V c main_arg2) (funext fun a => Fin.ext ?_)
  match a with
  | ⟨0, _⟩ => show win1_3.index t (0 : Fin 2) * 256 + 1 * d.val = d.val; rw [e6]; omega
  | ⟨1, _⟩ => show win1_3.index t (1 : Fin 2) * 256 + 1 * e.val = e.val; rw [e7]; omega

/-- The bias block is the whole bias at every point. -/
theorem bias_block (c : Dev nD) (t : Fin cfg1.N) (e : Fin 256) :
    (iblk1 V c 4 t : Vec Ideal S256 .f32) (ix1 e) = (V c main_arg3 : SD.Idx → EReal) (ix1 e) := by
  obtain ⟨-, -, -, -, -, -, -, -, e8, -⟩ := index_facts t
  unfold iblk1
  rw [View.read_apply]
  show V c main_arg3 _ = V c main_arg3 _
  refine congrArg (V c main_arg3) (funext fun a => Fin.ext ?_)
  match a with
  | ⟨0, _⟩ => show win1_4.index t (0 : Fin 1) * 256 + 1 * e.val = e.val; rw [e8]; omega

/-! ## What a point writes back, and the array after the last point -/

/-- Point `t` writes back rows `512 t … 512 t + 511` of the layer of the arrays as the region finds them. -/
theorem flushed_eq_layer_block (c : Dev nD) (t : Fin cfg1.N) :
    (dat1 (F := Ideal) V c).flushed 5 t
      = ((cfg1.win 5).blk t).view.read (Elt Ideal)
          (G1 (V c main_arg1) (V c main_v5) (V c main_v6) (V c main_arg2) (V c main_arg3)) := by
  obtain ⟨-, -, -, -, -, -, -, -, -, e9, e10⟩ := index_facts t
  show (cfg1.win 5).cut (grid1.coords t) ((dat1 V c).after 5 t) = _
  rw [after1_5]
  unfold out1_5
  rw [View.canon_unit_zero zero_offsets2]
  simp only [View.ld_unit_zero (S := S512x8192) zero_offsets2, View.ld_unit_zero (S := S8192x256) zero_offsets2,
    View.ld_unit_zero (S := S512x1) zero_offsets2, View.ld_unit_zero (S := S256x256) zero_offsets2,
    View.ld_unit_zero (S := S256) zero_offsets1]
  funext y
  show k1_pay1 (iblk1 V c 0 t) (iblk1 V c 1 t) (iblk1 V c 2 t) (iblk1 V c 3 t) (iblk1 V c 4 t) y
    = G1 (V c main_arg1) (V c main_v5) (V c main_v6) (V c main_arg2) (V c main_arg3) (((cfg1.win 5).blk t).view.emb y)
  exact payload_eq_layer (V c main_arg1) (V c main_v5) (V c main_v6) (V c main_arg2) (V c main_arg3)
    (iblk1 V c 0 t) (iblk1 V c 1 t) (iblk1 V c 2 t) (iblk1 V c 3 t) (iblk1 V c 4 t) t.val
    (adjacency_block V c t) (features_block V c t) (rowScale_block V c t) (weight_block V c t) (bias_block V c t)
    y (((cfg1.win 5).blk t).view.emb y)
    (by show win1_5.index t (0 : Fin 2) * 512 + 1 * (y 0).val = 512 * t.val + (y 0).val; rw [e9]; omega)
    (by show win1_5.index t (1 : Fin 2) * 256 + 1 * (y 1).val = (y 1).val; rw [e10]; omega)

/-- An entry of the output array is in point `t`'s block iff each coordinate is in the block's range on its axis. -/
theorem mem_row_block (t : Fin cfg1.N) (i : S8192x256.Idx) :
    i ∈ ((cfg1.win 5).blk t).view.set
      ↔ ∀ a : Fin 2, win1_5.index t a * S512x256.size a ≤ (i a).val
          ∧ (i a).val < win1_5.index t a * S512x256.size a + S512x256.size a := by
  show i ∈ ((View.whole main_v7).slice (win1_5.rect t)).set ↔ _
  rw [View.set_slice_whole, Rect.mem_set_unit]
  exact Iff.rfl

/-- The sixteen blocks of 512 rows tile the 8192 rows: row `n` is in the block of point `n / 512`. -/
theorem rows_covered (i : S8192x256.Idx) :
    ∃ t : Fin cfg1.N, (cfg1.win 5).flush t = true ∧ i ∈ ((cfg1.win 5).blk t).view.set := by
  have hi0 : (i 0).val < 8192 := (i 0).isLt
  have hi1 : (i 1).val < 256 := (i 1).isLt
  have hN : grid1.N = 16 := N_1
  let t : Fin cfg1.N := ⟨(i 0).val / 512, by show (i 0).val / 512 < grid1.N; omega⟩
  obtain ⟨-, -, -, -, -, -, -, -, -, e9, e10⟩ := index_facts t
  have ht : t.val = (i 0).val / 512 := rfl
  refine ⟨t, flush1_5 t, ?_⟩
  rw [mem_row_block]
  intro a
  match a with
  | ⟨0, _⟩ =>
    show win1_5.index t (0 : Fin 2) * 512 ≤ (i 0).val ∧ (i 0).val < win1_5.index t (0 : Fin 2) * 512 + 512
    rw [e9, ht]; omega
  | ⟨1, _⟩ =>
    show win1_5.index t (1 : Fin 2) * 256 ≤ (i 1).val ∧ (i 1).val < win1_5.index t (1 : Fin 2) * 256 + 256
    rw [e10]; omega

end

/-- What region 1 leaves in its output array: the layer of the adjacency, the pre-scaled features, the column of row
    scales, the weight and the bias as the region finds them, whatever those contents are. Every point writes back its
    block of that one array, and the blocks cover it. -/
theorem region1_value (V : (c : Dev nD) → (b : Ref sig .tc) → Buf (Elt Ideal) ((c : Thread nD τ).loc b)) (c : Dev nD) :
    (dat1 (F := Ideal) V c).arrAt 5 cfg1.N
      = Cert.Gcn.G1 (V c main_arg1) (V c main_v5) (V c main_v6) (V c main_arg2) (V c main_arg3) :=
  (dat1 (F := Ideal) V c).arrAt_eq_of_cover 5
    (Cert.Gcn.G1 (V c main_arg1) (V c main_v5) (V c main_v6) (V c main_arg2) (V c main_arg3))
    (fun t _ => flushed_eq_layer_block V c t) rows_covered

end Cert.Gcn.Region1
end
-- ==== Proof.KernelValue.lean ====
/-
  The idealized kernel's result as one function of its arguments.

  The host stretch between the two regions is read at an index: the scaled-features buffer holds each feature times
  its row's reciprocal degree, the column buffer the reciprocal degrees. With region 0's degree vector and region
  1's layer this makes the result buffer the layer over the aggregation that scales the features first and the rows
  afterwards.
-/
import proofs.«152606_j48473000903495_2_alg».proof.Proof.KernelRun
import proofs.«152606_j48473000903495_2_alg».proof.Proof.Region0
import proofs.«152606_j48473000903495_2_alg».proof.Proof.Region1
import proofs.«152606_j48473000903495_2_alg».proof.Proof.Spec
import Idealize.ShloMosaic.Lib.ValueIdx
import Idealize.ShloMosaic.Lib.Pipeline.Value

set_option maxRecDepth 16384

noncomputable section

open scoped BigOperators

namespace Cert.Gcn.Value

open Cert.KernelIdeal Cert.KernelIdeal.Gen
open Idealize.ShloMosaic Idealize.ShloMosaic.TcCoe Idealize.ShloMosaic.ValueIdx Idealize.SL.Sem
open Cert.Gcn Cert.Gcn.Run

/-! ## The host stretch at an index -/

/-- The reciprocal of a degree vector at entry `j`: one over the degree there. -/
theorem recip_apply (dg : FVec Ideal S8192 .f32) (j : Fin 8192) :
    recip (F := Ideal) dg (ix1 j) = Ideal.div one (dg (ix1 j)) := by
  show FloatOps.hostDivf (broadcastInDim S8192 ![] bcast_S_S8192 (constant (F := Ideal) S_ .f32 0x3F800000#32) (ix1 j)) (dg (ix1 j)) = _
  rw [broadcastInDim_apply _ bcast_S_S8192 _ (ix1 j) ix0 (fun a => a.elim0)]
  rfl

/-- A scaled feature is the feature times its row's reciprocal degree. -/
theorem scaled_apply (x : FVec Ideal S8192x256 .f32) (dg : FVec Ideal S8192 .f32) (j : Fin 8192) (d : Fin 256) :
    scaled (F := Ideal) x dg (ix2 j d) = x (ix2 j d) * Ideal.div one (dg (ix1 j)) := by
  unfold scaled
  rw [mulf_apply]
  refine congrArg (x (ix2 j d) * ·) ?_
  rw [broadcastInDim_apply _ bcast_S8192x1_S8192x256_0_1 _ (ix2 j d) (ix2 j (0 : Fin 1)) (fun a => match a with
      | ⟨0, _⟩ => by show j.val = if (8192 : Nat) = 1 then 0 else j.val; rw [if_neg (by decide)]
      | ⟨1, _⟩ => by show 0 = if (1 : Nat) = 1 then 0 else d.val; rw [if_pos rfl]),
    broadcastInDim_apply _ bcast_S8192_S8192x1_0 _ (ix2 j (0 : Fin 1)) (ix1 j) (fun a => match a with
      | ⟨0, _⟩ => by show j.val = if (8192 : Nat) = 1 then 0 else j.val; rw [if_neg (by decide)])]
  exact recip_apply dg j

/-- The column holds, in row `i`, that row's reciprocal degree. -/
theorem column_apply (dg : FVec Ideal S8192 .f32) (i : Fin 8192) :
    column (F := Ideal) dg (ix2 i (0 : Fin 1)) = Ideal.div one (dg (ix1 i)) := by
  unfold column
  rw [shapeCast_apply _ shapeCasts_S8192_S8192x1 (ix2 i (0 : Fin 1)) (ix1 i) (by
    rw [Shape.rowMajor_val_one, Shape.rowMajor_val_two]
    show i.val = i.val * 1 + 0
    omega)]
  exact recip_apply dg i

/-- Over the degree vector of an adjacency, the scaled features are the features times the reciprocal degrees, -/
theorem scaled_G0 (x : FVec Ideal S8192x256 .f32) (A : FVec Ideal S8192x8192 .f32) :
    scaled (F := Ideal) x (G0 A) = fun p => x p * inv A (p 0) := by
  funext p
  obtain ⟨j, d, rfl⟩ : ∃ (j : Fin 8192) (d : Fin 256), p = ix2 j d := ⟨p 0, p 1, eq_ix2 p⟩
  rw [scaled_apply]
  rfl

/-- and the column is the reciprocal degrees. -/
theorem column_G0 (A : FVec Ideal S8192x8192 .f32) :
    column (F := Ideal) (G0 A) = fun p => inv A (p 0) := by
  funext p
  obtain ⟨i, z, rfl⟩ : ∃ (i : Fin 8192) (z : Fin 1), p = ix2 i z := ⟨p 0, p 1, eq_ix2 p⟩
  obtain rfl : z = 0 := Subsingleton.elim _ _
  rw [column_apply]
  rfl

/-! ## The result -/

variable (m : (ℓ : Loc nD τ sig) → Buf (Elt Ideal) ℓ) (ρ : Dev nD → PrngReg)

/-- The result buffer ends holding the layer over `aggK` of the arguments as launched: region 1's array of the buffers
    it finds, those the host stretch's functions of region 0's degree vector and of the features, read back to
    the launch contents. -/
theorem result_eq (c : Dev nD) :
    W3 m ρ c (Proc.devRef .tc main_v7)
      = GK (m ((c : Thread nD τ).loc main_arg1)) (m ((c : Thread nD τ).loc main_arg0))
          (m ((c : Thread nD τ).loc main_arg2)) (m ((c : Thread nD τ).loc main_arg3)) := by
  rw [exit_result, Cert.Gcn.Region1.region1_value (V2 m ρ) c, entry1_arg1, entry1_scaled, entry1_column, entry1_arg2, entry1_arg3,
    Cert.Gcn.Region0.region0_value (V0 m ρ) c, entry0_arg1, scaled_G0, column_G0]
  exact G1_scaled _ _ _ _

/-- The idealized kernel's run: every weakly fair execution terminates with the result buffer at the layer over
    `aggK` of the arguments, and the arguments unchanged. -/
theorem run : θ_run defs (onTc (τ := τ) (main (F := Ideal))) ⟨m, fun _ => 0, ρ⟩ (fun r => ∀ c : Dev nD,
      r.2.mem ((c.tc : Thread nD τ).loc main_v7)
        = GK (m ((c.tc : Thread nD τ).loc main_arg1)) (m ((c.tc : Thread nD τ).loc main_arg0))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_named m ρ)

end Cert.Gcn.Value

end
-- ==== Proof.RefValue.lean ====
/-
  The reference program, read index by index, is the layer over the aggregation that scales each adjacency entry on
  both sides before the contraction.

  Row `i` of the adjacency `A` has reciprocal degree `inv i = 1 / (0 + ∑ j', A i j')`; the initial value of the row sum
  is the zero word, so the sum is the degree itself. The reference forms `(A i j · inv i) · inv j`, contracts it with
  the features over `j`, contracts the result with the weight over `d`, adds the bias and takes the maximum with the
  zero word. Every broadcast only re-reads an operand at an index with one coordinate dropped or pinned to zero, so each
  stage is identified with the corresponding formula by equating the composed index functions with `ix1` / `ix2`.
-/
import proofs.«152606_j48473000903495_2_alg».proof.Proof.Gen.ReferenceIdeal.Read
import proofs.«152606_j48473000903495_2_alg».proof.Proof.Spec

noncomputable section

open scoped BigOperators

namespace Cert.Gcn.Ref

open Idealize.ShloMosaic Idealize.ShloMosaic.ValueIdx
open Cert.ReferenceIdeal Cert.ReferenceIdeal.Read

/-- The reciprocal of the row sum at row `i` is the reciprocal degree: the sum starts from the zero word. -/
theorem recip_apply (x1 : FVec Ideal S8192x8192 .f32) (i : Fin 8192) :
    val_main_v2 (F := Ideal) x1 (ix1 i) = Cert.Gcn.inv x1 i := by
  rw [val_main_v2_apply, val_main_v1_apply, val_main_cst_0_apply, val_main_v0_apply, val_main_cst_apply]
  simp only [Ideal.hostDivf_def, Ideal.ofBits_def, Ideal.ofBits_zero_f32, zero_add]
  unfold Cert.Gcn.inv Cert.Gcn.deg Cert.Gcn.one
  refine congrArg _ (Finset.sum_congr rfl fun k _ => congrArg x1 ?_)
  exact funext fun a => Fin.ext (by match a with | ⟨0, _⟩ => rfl | ⟨1, _⟩ => rfl)

/-- The adjacency entry scaled by its row's and then by its column's reciprocal degree. -/
theorem scaled_apply (x1 : FVec Ideal S8192x8192 .f32) (i j : Fin 8192) :
    val_main_v8 (F := Ideal) x1 (ix2 i j) = x1 (ix2 i j) * Cert.Gcn.inv x1 i * Cert.Gcn.inv x1 j := by
  have e4 : idx_main_v3 (idx_main_v4 (ix2 i j)) = ix1 i :=
    funext fun a => Fin.ext (by match a with | ⟨0, _⟩ => rfl)
  have e7 : idx_main_v6 (idx_main_v7 (ix2 i j)) = ix1 j :=
    funext fun a => Fin.ext (by match a with | ⟨0, _⟩ => rfl)
  rw [val_main_v8_apply, val_main_v5_apply, val_main_v4_apply, val_main_v3_apply, val_main_v7_apply,
    val_main_v6_apply, e4, e7, recip_apply, recip_apply]
  simp only [Ideal.mulf_def]

/-- The first contraction is the aggregation over the scaled adjacency. -/
theorem agg_apply (x0 : FVec Ideal S8192x256 .f32) (x1 : FVec Ideal S8192x8192 .f32) (i : Fin 8192) (d : Fin 256) :
    val_main_v9 (F := Ideal) x0 x1 (ix2 i d) = Cert.Gcn.aggR x1 x0 i d := by
  rw [val_main_v9_apply]
  unfold Cert.Gcn.aggR
  refine Finset.sum_congr rfl fun j _ => ?_
  have el : lidx_main_v9 (ix2 i d) j = ix2 i j :=
    funext fun a => Fin.ext (by match a with | ⟨0, _⟩ => rfl | ⟨1, _⟩ => rfl)
  have er : ridx_main_v9 (ix2 i d) j = ix2 j d :=
    funext fun a => Fin.ext (by match a with | ⟨0, _⟩ => rfl | ⟨1, _⟩ => rfl)
  rw [el, er, scaled_apply]

/-- The reference's result is the layer over the aggregation of the scaled adjacency. -/
theorem ref_value (x0 : FVec Ideal S8192x256 .f32) (x1 : FVec Ideal S8192x8192 .f32) (x2 : FVec Ideal S256x256 .f32) (x3 : FVec Ideal S256 .f32) :
    Cert.ReferenceIdeal.Read.val_main_v14 (F := Ideal) x0 x1 x2 x3 = Cert.Gcn.GR x1 x0 x2 x3 := by
  funext p
  obtain ⟨i, e, rfl⟩ : ∃ (i : Fin 8192) (e : Fin 256), p = ix2 i e := ⟨p 0, p 1, eq_ix2 p⟩
  have eb : idx_main_v11 (idx_main_v12 (ix2 i e)) = ix1 e :=
    funext fun a => Fin.ext (by match a with | ⟨0, _⟩ => rfl)
  rw [val_main_v14_apply, val_main_v13_apply, val_main_v10_apply, val_main_v12_apply, val_main_v11_apply,
    val_main_call0_v0_apply, val_main_call0_cst_apply, eb, Cert.Gcn.GR_apply]
  simp only [Ideal.maximumf_def, Ideal.addf_def, Ideal.ofBits_def, Ideal.ofBits_zero_f32]
  unfold Cert.Gcn.layer
  refine congrArg (fun s => max (s + x3 (ix1 e)) 0) (Finset.sum_congr rfl fun d _ => ?_)
  have el : lidx_main_v10 (ix2 i e) d = ix2 i d :=
    funext fun a => Fin.ext (by match a with | ⟨0, _⟩ => rfl | ⟨1, _⟩ => rfl)
  have er : ridx_main_v10 (ix2 i e) d = ix2 d e :=
    funext fun a => Fin.ext (by match a with | ⟨0, _⟩ => rfl | ⟨1, _⟩ => rfl)
  rw [el, er, agg_apply]

end Cert.Gcn.Ref

end
-- ==== Proof.PreFacts.lean ====
/-
  What the precondition says, at the extended reals.

  The precondition is the conjunction of five tests, each an "all" over an array of one-bit answers:
  `|x| < +∞` at every entry of each of the four arguments, and `∑ j, A i j ≠ 0` at every row `i` of the adjacency `A`.
  An "and" of bits is 1 exactly when both bits are 1, and an "all" that is 1 met a 1 at every index, so the conjunction
  being 1 gives each test at each index. On the extended reals `|x| = max x (-x)`, which is `⊤` at both `⊤` and `⊥`
  and a real otherwise, so `|x| < ⊤` says that `x` is a real number; and the row sum from the initial value `0` is
  `0 + ∑ j, A i j`, the degree of row `i`, which the last test says is not `0`.
-/
import proofs.«152606_j48473000903495_2_alg».proof.Pre_finite_inputs
import proofs.«152606_j48473000903495_2_alg».proof.Proof.Spec
import Idealize.ShloMosaic.Lib.ReduceAll
import Idealize.ShloMosaic.Lib.ValueIdx
import Idealize.ShloMosaic.PureOps.Ideal.Laws

noncomputable section

open scoped BigOperators

namespace Cert.Gcn.Pre

open Idealize.ShloMosaic Idealize.ShloMosaic.ValueIdx
open Cert.Pre_finite_inputs

/-- The rank-zero shape has one index. -/
local instance : Subsingleton S_.Idx := ⟨fun a b => funext fun d => d.elim0⟩

/-- The word `0x7F800000` (all exponent bits set, no fraction bit, sign clear) denotes `+∞`. -/
private theorem inf_word : Ideal.ofBits .f32 0x7F800000#32 = ⊤ := by
  simp [Ideal.ofBits, Ideal.ieee]

/-- A truth value written as a bit is the bit 1 exactly when it is true. -/
private theorem ofBool_eq_one (b : Bool) : BitVec.ofBool b = 1#1 ↔ b = true := by cases b <;> decide

/-- An "and" of two one-bit arrays that is 1 at an index has both operands 1 there. -/
private theorem andi_one {s : Shape} (x y : IVec s 1) (i : s.Idx) (h : andi x y i = 1#1) : x i = 1#1 ∧ y i = 1#1 :=
  IntOp.andi_eq_one.1 h

/-- `|x| < +∞` on the extended reals: `max x (-x)` is `⊤` at `x = ⊤` and at `x = ⊥`, so the strict inequality leaves
    the reals. -/
theorem real_of_abs_lt (x : EReal)
    (h : FloatOps.cmpf (F := Ideal) (φ := .f32) .olt (FloatOps.hostAbsf (F := Ideal) (φ := .f32) x)
          (Ideal.ofBits .f32 0x7F800000#32) = 1#1) :
    x ≠ ⊤ ∧ x ≠ ⊥ := by
  rw [Ideal.hostAbsf_def, Ideal.cmpf_def, Ideal.absf_def, inf_word] at h
  unfold Ideal.cmp at h
  rw [ofBool_eq_one] at h
  simp only [decide_eq_true_eq] at h
  induction x using EReal.rec with
  | bot => simp at h
  | top => simp at h
  | coe r => exact ⟨EReal.coe_ne_top r, EReal.coe_ne_bot r⟩

/-- "All entries of `a` have `|a p| < +∞`", read back at every index `p`: every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ix0 = 1#1) (p : s.Idx) : a p ≠ ⊤ ∧ a p ≠ ⊥ :=
  real_of_abs_lt (a p) (Host.reduce_andi_all _ _ hr hu ix0 h p)

/-- The test "row sum ≠ 0" at row `i`: the sum over axis 1 from the initial value `0` is `0 + ∑ j, A i j`, the
    degree of the row, and the comparison "not equal" at the extended reals is `≠`. -/
theorem rowsum_ne_zero (a1 : FVec Ideal S8192x8192 .f32) (hr : S8192x8192.ReducesTo [1] S8192) (hu : 0 < S_.numel)
    (hb : S_.BroadcastsInDim S8192 (![] : Fin 0 → Fin S8192.rank)) (i : Fin 8192)
    (h : cmpf .une (Host.reduceAdd a1 (constant (F := Ideal) S_ .f32 0x00000000#32) hr hu)
          (broadcastInDim S8192 ![] hb (constant (F := Ideal) S_ .f32 0x00000000#32)) (ix1 i) = 1#1) :
    Cert.Gcn.deg a1 i ≠ 0 := by
  have h' : Ideal.cmp .une (Ideal.hostReduceAdd hr a1 (Ideal.ofBits .f32 0x00000000#32) (ix1 i))
      (Ideal.ofBits .f32 0x00000000#32) = 1#1 := h
  rw [Ideal.hostReduceAdd_single hr (by decide), Ideal.ofBits_zero_f32, zero_add] at h'
  unfold Ideal.cmp at h'
  rw [ofBool_eq_one] at h'
  simp only [decide_eq_true_eq] at h'
  unfold Cert.Gcn.deg
  intro hz
  apply h'
  rw [← hz]
  -- the index with `k` inserted on axis 1 of the row's index `(i)` is `(i, k)`
  refine Finset.sum_congr rfl fun k _ => congrArg a1 (funext fun a => Fin.ext (by
    match a with
    | ⟨0, _⟩ => rfl
    | ⟨1, _⟩ => rfl))

/-- The precondition decoded: the conjunction nests to the left, `((((c0 ∧ c1) ∧ c2) ∧ c3) ∧ c4)`; `c0` and `c1` say that
    the features and the adjacency are real at every entry, `c4` that no row of the adjacency sums to zero. -/
theorem pre_facts [Cert.Pre_finite_inputs.Facts] (a0 : FVec Ideal S8192x256 .f32) (a1 : FVec Ideal S8192x8192 .f32)
    (a2 : FVec Ideal S256x256 .f32) (a3 : FVec Ideal S256 .f32)
    (h : Cert.Pre_finite_inputs.fn (F := Ideal) a0 a1 a2 a3 = fun _ => 1#1) :
    (∀ p, a0 p ≠ ⊤ ∧ a0 p ≠ ⊥) ∧ (∀ p, a1 p ≠ ⊤ ∧ a1 p ≠ ⊥) ∧ (∀ i : Fin 8192, Cert.Gcn.deg a1 i ≠ 0) := by
  have e := congrFun h ix0
  dsimp only [Cert.Pre_finite_inputs.fn, Cert.Pre_finite_inputs.fn_part1] at e
  obtain ⟨e0123, e4⟩ := andi_one _ _ _ e
  obtain ⟨e012, -⟩ := andi_one _ _ _ e0123
  obtain ⟨e01, -⟩ := andi_one _ _ _ e012
  obtain ⟨e0, e1⟩ := andi_one _ _ _ e01
  refine ⟨all_real a0 _ _ _ e0, all_real a1 _ _ _ e1, fun i => ?_⟩
  exact rowsum_ne_zero a1 _ _ _ i (Host.reduce_andi_all _ _ _ _ ix0 e4 (ix1 i))

end Cert.Gcn.Pre

end
-- ==== Proof.lean ====
/-
  A graph-convolution layer: `relu((D⁻¹ A D⁻¹) x W + b)` with `D` the diagonal of the adjacency's row sums.

  The kernel computes the row sums in one grid region, takes their reciprocals `v` on the host, scales the feature
  rows (`xs j d = x j d · v j`), and in a second grid region contracts `A` against the scaled features, scales row `i`
  by `v i`, multiplies by `W`, adds `b` and rectifies. The reference scales each adjacency entry by `v i` and `v j`
  first and then contracts against `x`. Written entry by entry (Proof/Spec.lean) the two differ only in the
  aggregation,

      (∑ j, A i j · (x j d · v j)) · v i      against      ∑ j, ((A i j · v i) · v j) · x j d,

  which are one real number when the data are real and no row sum is zero (Proof/Law.lean): then every `v i` is a
  real number and `v i` distributes over the sum. Where a row sums to zero the reference's own `1 / degree` is
  infinite and the two sides part (a row `[1, -1, 0, …]` gives `0 · ∞ = 0` on one side and `∞ - ∞` on the other), so
  the precondition asks, besides finite inputs, that no row of the adjacency sums to zero.

  The pieces: Proof/KernelRun.lean and Proof/KernelValue.lean read the idealized kernel's run (the result buffer as
  a function of the arguments: Proof/Region0.lean the degree vector, Proof/Region1.lean the fused layer, the host
  stretch between them read at an index); Proof/RefValue.lean reads the reference's result; Proof/PreFacts.lean opens
  the precondition. The three frame claims are the programs' runs with the result forgotten, and the idealization
  rewrote nothing, so `preserves` has nothing to state.
-/
import proofs.«152606_j48473000903495_2_alg».proof.Defs
import proofs.«152606_j48473000903495_2_alg».proof.Proof.Gen.Kernel
import proofs.«152606_j48473000903495_2_alg».proof.Proof.Gen.Kernel.Frame
import proofs.«152606_j48473000903495_2_alg».proof.Proof.Gen.KernelIdeal
import proofs.«152606_j48473000903495_2_alg».proof.Proof.Gen.KernelIdeal.Frame
import proofs.«152606_j48473000903495_2_alg».proof.Proof.Gen.ReferenceIdeal
import proofs.«152606_j48473000903495_2_alg».proof.Proof.Gen.ReferenceIdeal.Run
import proofs.«152606_j48473000903495_2_alg».proof.Proof.Gen.ReferenceIdeal.Read
import proofs.«152606_j48473000903495_2_alg».proof.Proof.Gen.Pre_finite_inputs
import proofs.«152606_j48473000903495_2_alg».proof.Proof.Spec
import proofs.«152606_j48473000903495_2_alg».proof.Proof.Law
import proofs.«152606_j48473000903495_2_alg».proof.Proof.KernelValue
import proofs.«152606_j48473000903495_2_alg».proof.Proof.RefValue
import proofs.«152606_j48473000903495_2_alg».proof.Proof.PreFacts
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both idealized programs end with the layer
    over `aggK` of the arguments in their result buffers: the kernel by its run, the reference because its result is
    the layer over `aggR`, which is the same array on real data with no zero row sum. -/
theorem algebraic : Cert.algebraic_KernelIdeal_ReferenceIdeal := by
  intro m ρ m' ρ' hpre hagree
  refine ⟨fun c => Cert.Gcn.GK (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.Gcn.Value.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hA, hdeg⟩ := Cert.Gcn.Pre.pre_facts _ _ _ _ (hpre c)
  rw [Cert.ReferenceIdeal.Read.val_main_v14_eq, Cert.Gcn.Ref.ref_value, (hagree c).1, (hagree c).2.1, (hagree c).2.2.1,
    (hagree c).2.2.2]
  exact (Cert.Gcn.GK_eq_GR _ _ _ _ hA hx hdeg).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
